-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x8192 : Shape := ⟨3, ![4096, 2, 8192]⟩
abbrev S8192x8192 : Shape := ⟨2, ![8192, 8192]⟩
abbrev S_ : Shape := ⟨0, ![]⟩

class Facts : Prop where
  bcast_S_S4096x2x8192 : S_.BroadcastsInDim S4096x2x8192 (![] : Fin 0 → Fin S4096x2x8192.rank)
  reducesTo_S4096x2x8192_S_d0_1_2 : S4096x2x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4096x2x8192 .f32) (main_arg1 : FVec F S8192x8192 .f32) : IVec S_ 1 :=
  let main_v0 : FVec F S4096x2x8192 .f32 := Host.absf main_arg0
  let main_cst : FVec F S_ .f32 := constant S_ .f32 0x7F800000#32
  let main_v1 : FVec F S4096x2x8192 .f32 := broadcastInDim S4096x2x8192 ![] bcast_S_S4096x2x8192 main_cst
  let main_v2 : IVec S4096x2x8192 1 := cmpf .olt main_v0 main_v1
  let main_c : IVec S_ 1 := constantI S_ 1 1#1
  let main_v3 : IVec S_ 1 := (fun x v => Host.reduce IntOp.andi x v reducesTo_S4096x2x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S4096x2x8192 : Shape := ⟨3, ![4096, 2, 8192]⟩
abbrev S8192x8192 : Shape := ⟨2, ![8192, 8192]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2x8192, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S4096x2x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x2x8192_S8192x8192 : S4096x2x8192.ShapeCasts S8192x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S8192x8192_S4096x2x8192 : S8192x8192.ShapeCasts S4096x2x8192
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x2x8192 : Shape := ⟨3, ![4096, 2, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x2x8192, .f32⟩
  | .hbm, ⟨1, _⟩ => ⟨S8192x8192, .f32⟩
  | .hbm, ⟨2, _⟩ => ⟨S4096x2x8192, .f32⟩
  | _, _ => ⟨S4096x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x2x8192_S8192x8192_S4096x2x8192_2_0_01_1_n_n_wf : DotDims.WF S4096x2x8192 S8192x8192 S4096x2x8192 [2] [0] [0, 1] [1] [] []

variable [Facts₀]

def dot_S4096x2x8192_S8192x8192_S4096x2x8192_2_0_01_1_n_n : DotDims S4096x2x8192 S8192x8192 S4096x2x8192 where
  lhsContracting := [2]
  rhsContracting := [0]
  lhsNonContracting := [0, 1]
  rhsNonContracting := [1]
  lhsBatch := []
  rhsBatch := []
  wf := dot_S4096x2x8192_S8192x8192_S4096x2x8192_2_0_01_1_n_n_wf

class Facts : Prop extends Facts₀ where

variable [Facts]
-- ==== Proof.Pieces.lean ====
/-
  What each kind of step leaves behind, as one stored block.

  A step is of one of three kinds: the first stretch of a tile (the accumulator is zeroed, then updated), a middle
  stretch (updated), the last stretch (updated, then copied into the tile of the result). In each the accumulator
  is stored whole, last, with the update `k0_pay2` of the two loaded tiles and of what the accumulator held before
  — the zero block `k0_pay1` on a first stretch, what the step before left otherwise —, and on a last stretch the
  result's tile receives that same block. The loads read whole buffers, so the blocks they return are the buffers'
  contents. Nothing here depends on how floats are read.
-/
import proofs.«166370_j27470610825417_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Both coordinates of the offset of a whole-buffer access are zero. -/
theorem hz : (![0, 0] : Fin 2 → Nat) = fun _ => 0 := funext fun a => by fin_cases a <;> rfl

/-- A middle stretch leaves the accumulator at the update of what it held. -/
theorem acc_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : ¬cond0_1 i)
    (x0 : Vec F S512x1024 .f32) (x1 : Vec F S1024x1024 .f32) (xs0 : Vec F S512x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread,
    View.ld_unit_zero (S := S512x1024) hz, View.ld_unit_zero (S := S1024x1024) hz]

/-- A first stretch leaves the accumulator at the update of the zero block. -/
theorem acc_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i)
    (x0 : Vec F S512x1024 .f32) (x1 : Vec F S1024x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread,
    View.ld_unit_zero (S := S512x1024) hz, View.ld_unit_zero (S := S1024x1024) hz]

/-- A last stretch leaves the accumulator at the update of what it held, -/
theorem acc_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x1024 .f32) (x1 : Vec F S1024x1024 .f32) (xs0 : Vec F S512x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S512x1024) hz, View.ld_unit_zero (S := S1024x1024) hz]

/-- and the result's tile at that same block. -/
theorem tile_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x1024 .f32) (x1 : Vec F S1024x1024 .f32) (xs0 : Vec F S512x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S512x1024) _ hz]
  simp only [View.readAt_eq_ld, harg3.read_unread, harg4.read_unread, harg6.read_unread,
    View.ld_unit_zero (S := S512x1024) hz, View.ld_unit_zero (S := S1024x1024) hz]

end Cert.KernelIdeal.Pieces

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.Body.lean ====
/-
  What one step of the kernel stores into its accumulator, entry by entry, on the extended reals.

  On the first stretch of a tile the accumulator is first filled with the zero block (`zero_apply`). On every step
  the kernel then loads its tile of the left matrix (512 × 1024) and of the right matrix (1024 × 1024), narrows both to
  a shorter float format — which on the extended reals changes nothing —, multiplies them into a zero accumulator and
  adds the result to what the accumulator held: entry (p, q) of what it stores back is the old entry plus the sum
  over the stretch of left (p, k) · right (k, q) (`step_apply`).
-/
import proofs.«166370_j27470610825417_1_alg».proof.Proof.Gen.KernelIdeal.Skeleton
import proofs.«166370_j27470610825417_1_alg».proof.Proof.LibPlainMatmul
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The block stored on a tile's first stretch is zero at every entry. -/
theorem zero_apply (j : S512x1024.Idx) : k0_pay1 (F := Ideal) j = 0 := by
  unfold k0_pay1
  refine (congrFun (shapeCast_self _ _) j).trans ?_
  exact Ideal.ofBits_zero_f32

/-- The block a step stores: the accumulator's entry plus the step's partial sum of products. -/
theorem step_apply (a : Vec Ideal S512x1024 .f32) (b : Vec Ideal S1024x1024 .f32) (acc : Vec Ideal S512x1024 .f32)
    (p : Fin 512) (q : Fin 1024) :
    k0_pay2 (F := Ideal) a b acc (ix2 p q) = acc (ix2 p q) + ∑ k : Fin 1024, a (ix2 p k) * b (ix2 k q) := by
  unfold k0_pay2
  refine (congrFun (shapeCast_self _ _) (ix2 p q)).trans ?_
  refine (addf_apply _ _ _).trans ?_
  refine congrArg (acc (ix2 p q) + ·) ?_
  refine (Cert.SE.Lib.matmul_plain_apply (M := 512) (K := 1024) (N := 1024) (φ₁ := .bf16) (φ₂ := .bf16)
    dot_S512x1024_S1024x1024_S512x1024_1_0_0_1_n_n rfl rfl rfl rfl rfl rfl none _ _ p q).trans ?_
  refine Finset.sum_congr rfl fun k _ => ?_
  rw [truncf_apply, truncf_apply, shapeCast_self]

end Cert.KernelIdeal.Body

end
-- ==== Proof.LibPeriodicTotal.lean ====
/-
  A running total that is reset at the start of every period.

  Steps are counted 0, 1, 2, …; a period has `p + 1` steps. At a step whose number is a multiple of `p + 1` the total is
  set to `0 + g n`; at every other step `g n` is added to what the step before left. Then at the LAST step of period
  `q` — step `(p + 1) * q + p` — the total is the sum of that period's `p + 1` terms, `∑ b, g ((p + 1) * q + b)`
  (`total_period_end`). This is what an accumulator zeroed under "first step of the sweep" and read out under "last step
  of the sweep" holds, one sweep after another on one grid. Everything is stated in a commutative additive monoid: only
  associativity and `0 + x = x` are used, so it holds on the extended reals with no finiteness assumed.
-/
import Mathlib.Algebra.BigOperators.Fin
import Mathlib.Algebra.BigOperators.Intervals

namespace Cert.LibPeriodicTotal

open Finset

variable {M : Type*} [AddCommMonoid M]

/-- The running total after step `n`: reset to `0 + g n` when `n` is a multiple of the period `p + 1`, otherwise the
    step before plus `g n`. -/
def total (p : ℕ) (g : ℕ → M) : ℕ → M
  | 0 => 0 + g 0
  | n + 1 => if (n + 1) % (p + 1) = 0 then 0 + g (n + 1) else total p g n + g (n + 1)

/-- At the first step of a period the total is `0 + g n`. -/
theorem total_reset (p : ℕ) (g : ℕ → M) (n : ℕ) (h : n % (p + 1) = 0) : total p g n = 0 + g n := by
  cases n with
  | zero => rfl
  | succ n => exact if_pos h

/-- At any other step the term is added to the step before. -/
theorem total_step (p : ℕ) (g : ℕ → M) (n : ℕ) (h : ¬(n + 1) % (p + 1) = 0) :
    total p g (n + 1) = total p g n + g (n + 1) := if_neg h

/-- Inside period `q`, after its step number `n ≤ p`, the total is the sum of the period's first `n + 1` terms. -/
theorem total_within (p : ℕ) (g : ℕ → M) (q : ℕ) :
    ∀ n, n ≤ p → total p g ((p + 1) * q + n) = ∑ i ∈ range (n + 1), g ((p + 1) * q + i)
  | 0, _ => by
    rw [total_reset p g _ (by rw [Nat.add_zero, Nat.mul_mod_right]), zero_add, sum_range_one]
  | n + 1, hn => by
    have hne : ¬((p + 1) * q + n + 1) % (p + 1) = 0 := by
      rw [Nat.add_assoc, Nat.mul_add_mod, Nat.mod_eq_of_lt (by omega)]; omega
    rw [show (p + 1) * q + (n + 1) = (p + 1) * q + n + 1 from rfl, total_step p g _ hne,
      total_within p g q n (by omega), sum_range_succ _ (n + 1)]
    rfl

/-- At the last step of period `q` the total is the sum of the period's `p + 1` terms. -/
theorem total_period_end (p : ℕ) (g : ℕ → M) (q : ℕ) :
    total p g ((p + 1) * q + p) = ∑ b : Fin (p + 1), g ((p + 1) * q + b.val) := by
  rw [total_within p g q p (Nat.le_refl p), Finset.sum_range]

end Cert.LibPeriodicTotal
-- ==== Proof.LibBlockedSum.lean ====
/-
  Sums taken block by block.

  A sum over `B * K` consecutive indices is the sum over the `B` blocks of the sums inside each block of `K`
  (`sum_blocks`; the index of position `k` of block `b` is `k + K * b`), and a running total that starts as
  `0 + g 0` and adds `g (n + 1)` at step `n + 1` holds, after step `n`, the sum of `g 0, …, g n` (`running_total`).
  Together (`blocked_total`): a total accumulated one block at a time, from zero, is the whole sum. Everything is
  stated in a commutative additive monoid, so it holds on the extended reals, where no finiteness is needed:
  only commutativity, associativity and `0 + x = x` are used.
-/
import Mathlib.Algebra.BigOperators.Fin
import Mathlib.Algebra.BigOperators.Intervals
import Mathlib.Logic.Equiv.Fin.Basic

namespace Cert.LibBlockedSum

open Finset

variable {M : Type*} [AddCommMonoid M]

/-- The index, among `B * K` consecutive ones, of position `k` inside block `b`: its value is `k + K * b`. -/
abbrev slot (B K : ℕ) (b : Fin B) (k : Fin K) : Fin (B * K) := finProdFinEquiv (b, k)

theorem slot_val (B K : ℕ) (b : Fin B) (k : Fin K) : (slot B K b k).val = k.val + K * b.val := rfl

/-- A sum over `B * K` indices, regrouped as `B` blocks of `K`. -/
theorem sum_blocks (B K : ℕ) (f : Fin (B * K) → M) :
    ∑ i, f i = ∑ b : Fin B, ∑ k : Fin K, f (slot B K b k) := by
  rw [← Equiv.sum_comp (finProdFinEquiv (m := B) (n := K)) f, Fintype.sum_prod_type]

/-- A running total that starts as `0 + g 0` and adds `g (n + 1)` at step `n + 1` is, after step `n`, the sum of
    `g 0, …, g n`. -/
theorem running_total (g a : ℕ → M) (h0 : a 0 = 0 + g 0) (hs : ∀ n, a (n + 1) = a n + g (n + 1)) (n : ℕ) :
    a n = ∑ i ∈ range (n + 1), g i := by
  induction n with
  | zero => rw [h0, zero_add, sum_range_one]
  | succ n ih => rw [hs, ih, sum_range_succ _ (n + 1)]

/-- The same, for steps counted by `Fin B`: after the last of `B` steps the running total is the sum of all `B` terms. -/
theorem running_total_fin (B : ℕ) (g : Fin (B + 1) → M) (a : ℕ → M)
    (h0 : a 0 = 0 + g 0) (hs : ∀ n (h : n + 1 < B + 1), a (n + 1) = a n + g ⟨n + 1, h⟩) :
    a B = ∑ b, g b := by
  have key : ∀ n (h : n < B + 1), a n = ∑ i : Fin (n + 1), g ⟨i.val, lt_of_lt_of_le i.isLt h⟩ := by
    intro n
    induction n with
    | zero => intro h; rw [h0, zero_add, Fin.sum_univ_one]; rfl
    | succ n ih =>
      intro h
      rw [hs n h, ih (Nat.lt_of_succ_lt h), Fin.sum_univ_castSucc (n := n + 1)]
      rfl
  rw [key B (Nat.lt_succ_self B)]

/-- A total accumulated one block at a time from zero is the whole sum: if the running total starts as `0` plus the
    first block's sum and each later step adds that block's sum, then after the last of `B + 1` blocks it is the sum
    over all `(B + 1) * K` indices. -/
theorem blocked_total (B K : ℕ) (f : Fin ((B + 1) * K) → M) (a : ℕ → M)
    (h0 : a 0 = 0 + ∑ k : Fin K, f (slot (B + 1) K 0 k))
    (hs : ∀ n (h : n + 1 < B + 1), a (n + 1) = a n + ∑ k : Fin K, f (slot (B + 1) K ⟨n + 1, h⟩ k)) :
    a B = ∑ i, f i := by
  rw [sum_blocks (B + 1) K f]
  exact running_total_fin B (fun b => ∑ k : Fin K, f (slot (B + 1) K b k)) a h0 hs

end Cert.LibBlockedSum
-- ==== Proof.Sweep.lean ====
/-
  A product of two 8192 × 8192 matrices computed tile by tile.

  The result is cut into tiles of 512 rows by 1024 columns, and the contracted axis into eight stretches of 1024.
  The work is laid out on a grid of 16 × 8 × 8 steps visited in row-major order: step `n` belongs to row block
  `n / 64`, column block `n / 8 % 8` and stretch `n % 8`, and contributes to entry (p, q) of its tile the partial
  sum `term` over its stretch. A total that is reset to `0 + term` on the first stretch of a tile and otherwise adds
  `term` to what the step before left holds, on the tile's last stretch, the whole product's entry: the eight
  partial sums together run over every index of the contracted axis exactly once (`sweep_total`). Sums on the
  extended reals are commutative and associative with `0 + x = x`; nothing else is used, so no entry needs to be
  finite.
-/
import proofs.«166370_j27470610825417_1_alg».proof.Proof.LibPeriodicTotal
import proofs.«166370_j27470610825417_1_alg».proof.Proof.LibBlockedSum
import Idealize.ShloMosaic.PureOps.Ideal
import Idealize.ShloMosaic.Lib.ValueIdx

noncomputable section

namespace Cert.TiledProduct

open Idealize.ShloMosaic Idealize.ShloMosaic.ValueIdx
open Cert.LibPeriodicTotal Cert.LibBlockedSum

/-- An 8192 × 8192 matrix of extended reals. -/
abbrev Mat := (⟨2, ![8192, 8192]⟩ : Shape).Idx → EReal

/-- Entry (r, c) of the product: the sum over the contracted axis. -/
def prod (A B : Mat) (r c : Fin 8192) : EReal := ∑ n : Fin 8192, A (ix2 r n) * B (ix2 n c)

/-- Row `p` of the tile of step `n`, as a row of the matrix. -/
def rowAt (n : ℕ) (p : Fin 512) : Fin 8192 := ⟨n / 64 % 16 * 512 + p.val, by have := p.isLt; omega⟩

/-- Column `q` of the tile of step `n`, as a column of the matrix. -/
def colAt (n : ℕ) (q : Fin 1024) : Fin 8192 := ⟨n / 8 % 8 * 1024 + q.val, by have := q.isLt; omega⟩

/-- Position `k` of the stretch of step `n`, as an index of the contracted axis. -/
def depthAt (n : ℕ) (k : Fin 1024) : Fin 8192 := ⟨n % 8 * 1024 + k.val, by have := k.isLt; omega⟩

/-- What step `n` contributes to entry (p, q) of its tile: the partial sum over its stretch. -/
def term (A B : Mat) (p : Fin 512) (q : Fin 1024) (n : ℕ) : EReal :=
  ∑ k : Fin 1024, A (ix2 (rowAt n p) (depthAt n k)) * B (ix2 (depthAt n k) (colAt n q))

/-- On the last stretch of a tile the running total is the product's entry. -/
theorem sweep_total (A B : Mat) (p : Fin 512) (q : Fin 1024) (n : ℕ) (h7 : n % 8 = 7) :
    total 7 (term A B p q) n = prod A B (rowAt n p) (colAt n q) := by
  obtain ⟨s, rfl⟩ : ∃ s, n = (7 + 1) * s + 7 := ⟨n / 8, by omega⟩
  rw [total_period_end 7 (term A B p q) s]
  unfold prod
  rw [← Fin.sum_congr' (fun n : Fin 8192 => A (ix2 (rowAt ((7 + 1) * s + 7) p) n) * B (ix2 n (colAt ((7 + 1) * s + 7) q)))
    (show 8 * 1024 = 8192 from rfl), sum_blocks 8 1024]
  refine Finset.sum_congr rfl fun b _ => ?_
  unfold term
  refine Finset.sum_congr rfl fun k _ => ?_
  have hb := b.isLt
  have hr : rowAt ((7 + 1) * s + b.val) p = rowAt ((7 + 1) * s + 7) p := Fin.ext (by simp only [rowAt]; omega)
  have hc : colAt ((7 + 1) * s + b.val) q = colAt ((7 + 1) * s + 7) q := Fin.ext (by simp only [colAt]; omega)
  have hd : depthAt ((7 + 1) * s + b.val) k = Fin.cast (show 8 * 1024 = 8192 from rfl) (slot 8 1024 b k) :=
    Fin.ext (by simp only [depthAt, Fin.coe_cast, slot_val]; omega)
  rw [hr, hc, hd]

end Cert.TiledProduct

end
-- ==== Proof.Blocks.lean ====
/-
  Which entries of the two matrices a step's tiles hold, and what the left matrix is.

  Step `t` of the 16 × 8 × 8 grid reads the tile of the left matrix at row block `t / 64` and stretch `t % 8`
  and the tile of the right matrix at stretch `t % 8` and column block `t / 8 % 8`, and, on a last stretch,
  writes the tile of the result at row block `t / 64` and column block `t / 8 % 8` (the three index maps, decided
  once over the grid's 1024 steps). So entry (p, k) of the left tile is the left matrix at (rowAt t p, depthAt t k)
  and entry (k, q) of the right tile the right matrix at (depthAt t k, colAt t q). The left matrix itself is the
  first argument [4096, 2, 8192] with its two leading axes merged: row `r` is the pair (r / 2, r % 2).
-/
import proofs.«166370_j27470610825417_1_alg».proof.Proof.Gen.KernelIdeal.Frame
import proofs.«166370_j27470610825417_1_alg».proof.Proof.Sweep
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.TiledProduct

variable {F : FTy → Type} [FloatOps F]
variable (m : (ℓ : Loc nD τ sig) → Buf (Elt F) ℓ)

/-- The left tile's block coordinates at step `t`: row block `t / 64`, stretch `t % 8`. -/
theorem idx_left : ∀ t : Fin cfg0.N, win0_0.index t (0 : Fin 2) = t.val / 64 % 16 ∧ win0_0.index t (1 : Fin 2) = t.val % 8 :=
  (by decide +kernel : ∀ t : Fin grid0.N, win0_0.index t (0 : Fin 2) = t.val / 64 % 16 ∧ win0_0.index t (1 : Fin 2) = t.val % 8)

/-- The right tile's: stretch `t % 8`, column block `t / 8 % 8`. -/
theorem idx_right : ∀ t : Fin cfg0.N, win0_1.index t (0 : Fin 2) = t.val % 8 ∧ win0_1.index t (1 : Fin 2) = t.val / 8 % 8 :=
  (by decide +kernel : ∀ t : Fin grid0.N, win0_1.index t (0 : Fin 2) = t.val % 8 ∧ win0_1.index t (1 : Fin 2) = t.val / 8 % 8)

/-- The result tile's: row block `t / 64`, column block `t / 8 % 8`. -/
theorem idx_out : ∀ t : Fin cfg0.N, win0_2.index t (0 : Fin 2) = t.val / 64 % 16 ∧ win0_2.index t (1 : Fin 2) = t.val / 8 % 8 :=
  (by decide +kernel : ∀ t : Fin grid0.N, win0_2.index t (0 : Fin 2) = t.val / 64 % 16 ∧ win0_2.index t (1 : Fin 2) = t.val / 8 % 8)

/-- Entry (p, k) of the left tile at step `t`. -/
theorem left_tile (c : Dev nD) (t : Fin cfg0.N) (p : Fin 512) (k : Fin 1024) :
    (iblk m c 0 t : Vec F S512x1024 .f32) (ix2 p k) = V m c main_v0 (ix2 (rowAt t.val p) (depthAt t.val k)) := by
  have hi := idx_left t
  unfold iblk
  rw [View.read_apply]
  show V m c main_v0 _ = V m c main_v0 _
  congr 1
  funext a
  apply Fin.ext
  match a with
  | ⟨0, _⟩ => show win0_0.index t 0 * 512 + 1 * p.val = t.val / 64 % 16 * 512 + p.val; rw [hi.1]; omega
  | ⟨1, _⟩ => show win0_0.index t 1 * 1024 + 1 * k.val = t.val % 8 * 1024 + k.val; rw [hi.2]; omega

/-- Entry (k, q) of the right tile at step `t`. -/
theorem right_tile (c : Dev nD) (t : Fin cfg0.N) (k : Fin 1024) (q : Fin 1024) :
    (iblk m c 1 t : Vec F S1024x1024 .f32) (ix2 k q) = V m c main_arg1 (ix2 (depthAt t.val k) (colAt t.val q)) := by
  have hi := idx_right t
  unfold iblk
  rw [View.read_apply]
  show V m c main_arg1 _ = V m c main_arg1 _
  congr 1
  funext a
  apply Fin.ext
  match a with
  | ⟨0, _⟩ => show win0_1.index t 0 * 1024 + 1 * k.val = t.val % 8 * 1024 + k.val; rw [hi.1]; omega
  | ⟨1, _⟩ => show win0_1.index t 1 * 1024 + 1 * q.val = t.val / 8 % 8 * 1024 + q.val; rw [hi.2]; omega

/-- The left matrix as the kernel finds it: the first argument, reshaped. -/
theorem left_array (c : Dev nD) :
    V m c main_v0 = shapeCast S8192x8192 (m ((c : Thread nD τ).loc main_arg0)) shapeCasts_S4096x2x8192_S8192x8192 := by
  show StableHlo.after hostOps0 (fun b => m (c, b)) (Proc.devRef .tc main_v0) = _
  after_results
  rfl

/-- Row `r` of the left matrix is the pair (r / 2, r % 2) of the first argument's leading axes. -/
theorem left_array_apply (c : Dev nD) (r n : Fin 8192) :
    V m c main_v0 (ix2 r n)
      = m ((c : Thread nD τ).loc main_arg0) (ix3 (⟨r.val / 2, by have := r.isLt; omega⟩ : Fin 4096) (⟨r.val % 2, by omega⟩ : Fin 2) n) := by
  refine (congrFun (left_array m c) (ix2 r n)).trans ?_
  refine shapeCast_apply _ _ _ _ ?_
  show (S4096x2x8192.rowMajor (ix3 _ _ n)).val = (S8192x8192.rowMajor (ix2 r n)).val
  rw [Shape.rowMajor_val_three, Shape.rowMajor_val_two]
  show (r.val / 2 * 2 + r.val % 2) * 8192 + n.val = r.val * 8192 + n.val
  omega

end Cert.KernelIdeal.Blocks

end
-- ==== Proof.Accum.lean ====
/-
  What the accumulator holds after every step, and what a tile of the result receives.

  After step `t` the accumulator is the update of the two tiles the step read and of what the accumulator held before
  — the zero block on the first stretch of a tile, what step `t - 1` left otherwise (`acc_after`: the three kinds
  of step read together). Entry by entry on the extended reals that is a running total of the steps' partial sums,
  reset at the start of every tile (`acc_entry`, by induction on the step). On a last stretch the result's tile
  receives the accumulator, so its entry (p, q) is the full sum over the contracted axis: the product's entry at
  the tile's row and column (`tile_entry`).
-/
import proofs.«166370_j27470610825417_1_alg».proof.Proof.Pieces
import proofs.«166370_j27470610825417_1_alg».proof.Proof.Body
import proofs.«166370_j27470610825417_1_alg».proof.Proof.Blocks
import proofs.«166370_j27470610825417_1_alg».proof.Proof.Sweep

noncomputable section

namespace Cert.KernelIdeal.Accum

open Cert.KernelIdeal Cert.KernelIdeal.Gen Idealize.ShloMosaic Idealize.ShloMosaic.TcCoe Idealize.SL.Sem
open Idealize.ShloMosaic.ValueIdx Cert.TiledProduct Cert.LibPeriodicTotal
open Cert.KernelIdeal.Pieces Cert.KernelIdeal.Body Cert.KernelIdeal.Blocks

section AnyFloat

variable {F : FTy → Type} [FloatOps F]
variable (m : (ℓ : Loc nD τ sig) → Buf (Elt F) ℓ)

/-- After step `t` the accumulator is the update of the step's two tiles and of the zero block (first stretch) or of
    what the step before left. -/
theorem acc_after (c : Dev nD) (t : Fin cfg0.N) :
    (outsAt0 m c t.val t.isLt).2
      = k0_pay2 (iblk m c 0 t) (iblk m c 1 t)
          (if t.val % 8 = 0 then k0_pay1 (F := F)
            else (outsAt0 m c (t.val - 1) (Nat.lt_of_le_of_lt (Nat.sub_le _ _) t.isLt)).2) := by
  by_cases h0 : t.val % 8 = 0
  · have h1 : ¬t.val % 8 = 7 := by omega
    rw [if_pos h0, outsAt0_A m c t h0 h1]
    dsimp only
    exact acc_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)
  · rw [if_neg h0]
    by_cases h1 : t.val % 8 = 7
    · rw [outsAt0_C m c t h0 h1]
      dsimp only
      exact acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2
    · rw [outsAt0_B m c t h0 h1]
      dsimp only
      exact acc_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2

/-- On a last stretch the result's tile receives what the accumulator ends at. -/
theorem tile_after (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (tile_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t)
      (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t)
      (outsAt0 m c (t.val - 1) (Nat.lt_of_le_of_lt (Nat.sub_le _ _) t.isLt)).2).symm

end AnyFloat

/-! ## On the extended reals -/

variable (m : (ℓ : Loc nD τ sig) → Buf (Elt Ideal) ℓ)

/-- The left matrix as the kernel finds it (the first argument with its leading axes merged). -/
abbrev left (c : Dev nD) : Mat := V m c main_v0
/-- The right matrix (the second argument). -/
abbrev right (c : Dev nD) : Mat := V m c main_arg1

/-- Entry (p, q) of a step's update: the old entry plus the step's partial sum over its stretch. -/
theorem step_entry (c : Dev nD) (t : Fin cfg0.N) (acc : Vec Ideal S512x1024 .f32) (p : Fin 512) (q : Fin 1024) :
    k0_pay2 (F := Ideal) (iblk m c 0 t) (iblk m c 1 t) acc (ix2 p q)
      = acc (ix2 p q) + term (left m c) (right m c) p q t.val := by
  refine (step_apply (iblk m c 0 t) (iblk m c 1 t) acc p q).trans ?_
  refine congrArg (acc (ix2 p q) + ·) ?_
  unfold term
  refine Finset.sum_congr rfl fun k _ => ?_
  rw [left_tile m c t p k, right_tile m c t k q]

/-- The accumulator's entry (p, q) after step `n` is the running total of the partial sums, reset at each tile's start. -/
theorem acc_entry (c : Dev nD) (p : Fin 512) (q : Fin 1024) :
    ∀ (n : ℕ) (h : n < cfg0.N), (outsAt0 m c n h).2 (ix2 p q) = total 7 (term (left m c) (right m c) p q) n := by
  intro n
  induction n with
  | zero =>
    intro h
    refine (congrFun (acc_after m c ⟨0, h⟩) (ix2 p q)).trans ?_
    refine (step_entry m c ⟨0, h⟩ _ p q).trans ?_
    dsimp only
    rw [if_pos (Nat.zero_mod 8), zero_apply]
    exact (total_reset 7 _ 0 (Nat.zero_mod _)).symm
  | succ n ih =>
    intro h
    refine (congrFun (acc_after m c ⟨n + 1, h⟩) (ix2 p q)).trans ?_
    refine (step_entry m c ⟨n + 1, h⟩ _ p q).trans ?_
    dsimp only
    by_cases h0 : (n + 1) % 8 = 0
    · rw [if_pos h0, zero_apply]
      exact (total_reset 7 _ (n + 1) h0).symm
    · rw [if_neg h0, total_step 7 _ n h0]
      show (outsAt0 m c n _).2 (ix2 p q) + _ = _
      rw [ih (Nat.lt_of_succ_lt h)]

/-- On a last stretch, entry (p, q) of the tile the result receives is the product's entry at the tile's row and column. -/
theorem tile_entry (c : Dev nD) (t : Fin cfg0.N) (h7 : t.val % 8 = 7) (p : Fin 512) (q : Fin 1024) :
    (outsAt0 m c t.val t.isLt).1 (ix2 p q) = prod (left m c) (right m c) (rowAt t.val p) (colAt t.val q) := by
  rw [tile_after m c t h7, acc_entry m c p q t.val t.isLt]
  exact sweep_total _ _ p q t.val h7

end Cert.KernelIdeal.Accum

end
-- ==== Proof.Einsum.lean ====
/-
  The result, as one function of the two arguments.

  For `x` of shape [4096, 2, 8192] and `T` of shape [8192, 8192] the result at (b, c, m) is the sum over `n` of
  `x (b, c, n) · T (n, m)` (`einsum`). Merging the two leading axes of `x` into rows `2 b + c` of an 8192 × 8192
  matrix, multiplying that matrix by `T` and splitting the rows of the product again gives the same number at every
  index: the sum is term by term the same (`prod_merged`).
-/
import proofs.«166370_j27470610825417_1_alg».proof.Proof.Sweep

noncomputable section

namespace Cert.TiledProduct

open Idealize.ShloMosaic Idealize.ShloMosaic.ValueIdx

/-- A [4096, 2, 8192] array of extended reals. -/
abbrev Arr3 := (⟨3, ![4096, 2, 8192]⟩ : Shape).Idx → EReal

/-- The result at (b, c, m): the sum over the contracted axis of `x (b, c, n) · T (n, m)`. -/
def einsum (x : Arr3) (T : Mat) : Arr3 := fun i => ∑ n : Fin 8192, x (ix3 (i 0) (i 1) n) * T (ix2 n (i 2))

/-- Row `2 b + c` of the merged matrix. -/
def mergedRow (b : Fin 4096) (c : Fin 2) : Fin 8192 := ⟨b.val * 2 + c.val, by have := b.isLt; have := c.isLt; omega⟩

/-- If `L` is `x` with its leading axes merged, the product `L · T` at row `2 b + c` is the result at (b, c, ·). -/
theorem prod_merged (x : Arr3) (T L : Mat)
    (hL : ∀ r n : Fin 8192, L (ix2 r n)
      = x (ix3 (⟨r.val / 2, by have := r.isLt; omega⟩ : Fin 4096) (⟨r.val % 2, by omega⟩ : Fin 2) n))
    (b : Fin 4096) (c : Fin 2) (m : Fin 8192) :
    prod L T (mergedRow b c) m = einsum x T (ix3 b c m) := by
  unfold prod einsum
  refine Finset.sum_congr rfl fun n _ => ?_
  rw [hL]
  have hc := c.isLt
  have e0 : (⟨(mergedRow b c).val / 2, by have := (mergedRow b c).isLt; omega⟩ : Fin 4096) = b :=
    Fin.ext (by simp only [mergedRow]; omega)
  have e1 : (⟨(mergedRow b c).val % 2, by omega⟩ : Fin 2) = c := Fin.ext (by simp only [mergedRow]; omega)
  rw [e0, e1]

end Cert.TiledProduct

end
-- ==== Proof.Final.lean ====
/-
  The kernel's result: the tiles assembled, the rows split, the run read.

  Every last-stretch step writes its tile back, and that tile is the tile of the product of the left and right
  matrices at the step's row and column block (`flushed_eq`). The 16 × 8 tiles cover the 8192 × 8192 matrix — entry
  (r, s) lies in the tile written at step 64 (r / 512) + 8 (s / 1024) + 7 (`covered`) —, so after the last step
  the region's result is the whole product (`final`). The host then splits row `2 b + c` into the pair (b, c); the
  left matrix being the first argument with those axes merged, what the program returns is at every index
  (b, c, m) the sum over `n` of `x (b, c, n) · T (n, m)` (`result_eq`, `run`).
-/
import proofs.«166370_j27470610825417_1_alg».proof.Proof.Accum
import proofs.«166370_j27470610825417_1_alg».proof.Proof.Einsum
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.TiledProduct
open Cert.KernelIdeal.Blocks Cert.KernelIdeal.Accum

variable (m : (ℓ : Loc nD τ sig) → Buf (Elt Ideal) ℓ) (ρ : Dev nD → PrngReg)

/-- The product of the left and right matrices, as the contents of the region's result. -/
def product (c : Dev nD) : Mat := fun i => prod (left m c) (right m c) (i 0) (i 1)

/-- A tile written back read at any of its indices: the product at the tile's row and column. -/
theorem tile_read (c : Dev nD) (t : Fin cfg0.N) (h7 : t.val % 8 = 7) (j : S512x1024.Idx) :
    (outsAt0 m c t.val t.isLt).1 j = product m c (ix2 (rowAt t.val (j 0)) (colAt t.val (j 1))) := by
  obtain ⟨p, q, rfl⟩ : ∃ (p : Fin 512) (q : Fin 1024), j = ix2 p q := ⟨j 0, j 1, eq_ix2 j⟩
  exact tile_entry m c t h7 p q

/-- What a last-stretch step writes back is its tile of the product. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  have hi := idx_out t
  show (cfg0.win 2).cut (grid0.coords t) ((dats m 0 c).after 2 t) = _
  rw [after0_2]
  funext j
  refine (tile_read m c t h7 j).trans ?_
  rw [View.read_apply]
  refine congrArg (product m c) ?_
  funext a
  apply Fin.ext
  match a with
  | ⟨0, _⟩ => show t.val / 64 % 16 * 512 + (j 0).val = win0_2.index t (0 : Fin 2) * 512 + 1 * (j 0).val; rw [hi.1]; omega
  | ⟨1, _⟩ => show t.val / 8 % 8 * 1024 + (j 1).val = win0_2.index t (1 : Fin 2) * 1024 + 1 * (j 1).val; rw [hi.2]; omega

/-- An index of the matrix is in step `t`'s tile iff each coordinate is in the tile's range on its axis. -/
theorem mem_tile (t : Fin cfg0.N) (i : S8192x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every entry of the matrix lies in the tile written back at the last stretch of its row and column block. -/
theorem covered (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 1024 := N_0
  obtain ⟨t, ht⟩ : ∃ t : Fin cfg0.N, t.val = (i 0).val / 512 * 64 + (i 1).val / 1024 * 8 + 7 :=
    ⟨⟨(i 0).val / 512 * 64 + (i 1).val / 1024 * 8 + 7, by rw [hN]; omega⟩, rfl⟩
  have hi := idx_out t
  refine ⟨t, (flush0_2 t).mpr (by omega), ?_⟩
  rw [mem_tile]
  intro a
  match a with
  | ⟨0, _⟩ =>
    show win0_2.index t (0 : Fin 2) * 512 ≤ (i 0).val ∧ (i 0).val < win0_2.index t (0 : Fin 2) * 512 + 512
    rw [hi.1]; omega
  | ⟨1, _⟩ =>
    show win0_2.index t (1 : Fin 2) * 1024 ≤ (i 1).val ∧ (i 1).val < win0_2.index t (1 : Fin 2) * 1024 + 1024
    rw [hi.2]; omega

/-- After the last step the region's result is the whole product. -/
theorem final (c : Dev nD) : (dats m 0 c).arrAt 2 cfg0.N = product m c :=
  (dats m 0 c).arrAt_eq_of_cover 2 (product m c) (flushed_eq m c) covered

/-- What the program returns: the product with its rows split into the two leading axes. -/
theorem tail (c : Dev nD) :
    Pipeline.afterTail₀ cfgs (dats m) 0 (V0 m) [hostOps1] c main_v2
      = shapeCast S4096x2x8192 (product m c) shapeCasts_S8192x8192_S4096x2x8192 := by
  unfold Pipeline.afterTail₀
  show StableHlo.after hostOps1 _ (Proc.devRef .tc main_v2) = _
  after_results
  rw [(Pipeline.withArrays_arr spec0 launch0.win.arr_inj c _ _ 2).trans (final m c)]
  rfl

/-- At every index the returned array is the sum over `n` of `x (b, c, n) · T (n, m)` of the two arguments. -/
theorem result_eq (c : Dev nD) :
    Pipeline.afterTail₀ cfgs (dats m) 0 (V0 m) [hostOps1] c main_v2
      = einsum (m ((c : Thread nD τ).loc main_arg0)) (m ((c : Thread nD τ).loc main_arg1)) := by
  rw [tail]
  funext i
  obtain ⟨b, d, s, rfl⟩ : ∃ (b : Fin 4096) (d : Fin 2) (s : Fin 8192), i = ix3 b d s := ⟨i 0, i 1, i 2, eq_ix3 i⟩
  have hk : (S8192x8192.rowMajor (ix2 (mergedRow b d) s)).val = (S4096x2x8192.rowMajor (ix3 b d s)).val := by
    rw [Shape.rowMajor_val_three, Shape.rowMajor_val_two]
    show (b.val * 2 + d.val) * 8192 + s.val = (b.val * 2 + d.val) * 8192 + s.val
    rfl
  refine (shapeCast_apply _ _ _ _ hk).trans ?_
  show prod (left m c) (right m c) (mergedRow b d) s = _
  rw [show right m c = m ((c : Thread nD τ).loc main_arg1) from V_main_arg1 m c]
  exact prod_merged _ _ _ (left_array_apply m c) b d s

/-- The kernel's run, read: the result at the einsum of the two arguments, the arguments unchanged. -/
theorem run : θ_run defs (onTc (τ := τ) (main (F := Ideal))) ⟨m, fun _ => 0, ρ⟩ fun r => ∀ c : Dev nD,
      r.2.mem ((c.tc : Thread nD τ).loc main_v2)
        = einsum (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Final

end
-- ==== Proof.RefSide.lean ====
/-
  The reference's result is the same function of the two arguments.

  The reference is one contraction of `x` [4096, 2, 8192] with `T` [8192, 8192] over `x`'s last and `T`'s first
  axis. On the extended reals its entry (b, c, m) is the sum over `n` of `x (b, c, n) · T (n, m)`: the left operand
  is read at (b, c, n), the right at (n, m).
-/
import proofs.«166370_j27470610825417_1_alg».proof.Proof.Gen.ReferenceIdeal.Read
import proofs.«166370_j27470610825417_1_alg».proof.Proof.Einsum

noncomputable section

namespace Cert.ReferenceIdeal.RefValue

open Cert.ReferenceIdeal Cert.ReferenceIdeal.Gen Idealize.ShloMosaic Idealize.ShloMosaic.ValueIdx Cert.TiledProduct

/-- The contraction the reference computes is the einsum of its two operands. -/
theorem result_eq (x : (⟨S4096x2x8192, .f32⟩ : BufTy).Contents (Elt Ideal)) (T : (⟨S8192x8192, .f32⟩ : BufTy).Contents (Elt Ideal)) :
    Read.val_main_v0 (F := Ideal) x T = einsum x T := by
  funext i
  rw [Read.val_main_v0_apply]
  unfold einsum
  refine Finset.sum_congr rfl fun k _ => ?_
  have el : Read.lidx_main_v0 i k = ix3 (i 0) (i 1) k :=
    funext fun a => Fin.ext (by match a with | ⟨0, _⟩ => rfl | ⟨1, _⟩ => rfl | ⟨2, _⟩ => rfl)
  have er : Read.ridx_main_v0 i k = ix2 k (i 2) :=
    funext fun a => Fin.ext (by match a with | ⟨0, _⟩ => rfl | ⟨1, _⟩ => rfl)
  rw [el, er]
  rfl

end Cert.ReferenceIdeal.RefValue

end
-- ==== Proof.lean ====
/-
  The kernel computes `out[b, c, m] = Σ_n x[b, c, n] · T[n, m]` for `x` [4096, 2, 8192] and `T` [8192, 8192] by
  merging `x`'s two leading axes into the rows of an 8192 × 8192 matrix, multiplying that matrix by `T` tile by
  tile — tiles of 512 × 1024 entries, the contracted axis in eight stretches of 1024 accumulated in a scratch block that
  is zeroed on a tile's first stretch and copied out on its last — and splitting the rows again. The reference is one
  contraction of `x` with `T`.

  On the extended reals the two narrowing casts in the kernel's body are the identity, a matrix product into a zero
  accumulator is the plain sum of products, and addition is commutative and associative with `0 + a = a`: so the
  eight partial sums a tile accumulates are together the sum over the whole contracted axis, the 128 tiles cover the
  product, and merging then splitting the rows changes no entry. Both programs therefore return, at every index,
  the same sum; no entry needs to be finite for that. The three programs' runs and the unchanged arguments come from
  the generated frames and the reference's generated run; the idealization rewrote nothing, so its conjunct is
  trivial.
-/
import proofs.«166370_j27470610825417_1_alg».proof.Defs
import proofs.«166370_j27470610825417_1_alg».proof.Proof.Gen.Kernel
import proofs.«166370_j27470610825417_1_alg».proof.Proof.Gen.Kernel.Skeleton
import proofs.«166370_j27470610825417_1_alg».proof.Proof.Gen.Kernel.Launch
import proofs.«166370_j27470610825417_1_alg».proof.Proof.Gen.Kernel.Points
import proofs.«166370_j27470610825417_1_alg».proof.Proof.Gen.Kernel.Frame
import proofs.«166370_j27470610825417_1_alg».proof.Proof.Gen.KernelIdeal
import proofs.«166370_j27470610825417_1_alg».proof.Proof.Gen.KernelIdeal.Skeleton
import proofs.«166370_j27470610825417_1_alg».proof.Proof.Gen.KernelIdeal.Launch
import proofs.«166370_j27470610825417_1_alg».proof.Proof.Gen.KernelIdeal.Points
import proofs.«166370_j27470610825417_1_alg».proof.Proof.Gen.KernelIdeal.Frame
import proofs.«166370_j27470610825417_1_alg».proof.Proof.Gen.ReferenceIdeal
import proofs.«166370_j27470610825417_1_alg».proof.Proof.Gen.ReferenceIdeal.Run
import proofs.«166370_j27470610825417_1_alg».proof.Proof.Gen.ReferenceIdeal.Read
import proofs.«166370_j27470610825417_1_alg».proof.Proof.Gen.Pre_finite_inputs
import proofs.«166370_j27470610825417_1_alg».proof.Proof.Final
import proofs.«166370_j27470610825417_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the einsum of arguments that agree. -/
theorem algebraic : Cert.algebraic_KernelIdeal_ReferenceIdeal := by
  intro m ρ m' ρ' _ hagree
  refine ⟨fun c => Cert.TiledProduct.einsum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
